-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1024 : Shape := ⟨3, ![64, 1024, 1024]⟩
abbrev S_ : Shape := ⟨0, ![]⟩

class Facts : Prop where
  bcast_S_S64x1024x1024 : S_.BroadcastsInDim S64x1024x1024 (![] : Fin 0 → Fin S64x1024x1024.rank)
  reducesTo_S64x1024x1024_S_d0_1_2 : S64x1024x1024.ReducesTo [0, 1, 2] S_
  h_S_ : 0 < S_.numel

variable [Facts]

def fn {F : FTy → Type} [FloatOps F] (main_arg0 : FVec F S64x1024x1024 .f32) : IVec S_ 1 :=
  let main_v0 : FVec F S64x1024x1024 .f32 := Host.absf main_arg0
  let main_cst : FVec F S_ .f32 := constant S_ .f32 0x7F800000#32
  let main_v1 : FVec F S64x1024x1024 .f32 := broadcastInDim S64x1024x1024 ![] bcast_S_S64x1024x1024 main_cst
  let main_v2 : IVec S64x1024x1024 1 := cmpf .olt main_v0 main_v1
  let main_c : IVec S_ 1 := constantI S_ 1 1#1
  let main_v3 : IVec S_ 1 := (fun x v => Host.reduce IntOp.andi x v reducesTo_S64x1024x1024_S_d0_1_2 h_S_) main_v2 main_c
  main_v3
-- ==== Kernel.lean ====
abbrev S64x1024x1024 : Shape := ⟨3, ![64, 1024, 1024]⟩
abbrev S1x1 : Shape := ⟨2, ![1, 1]⟩
abbrev S4x1024x1024 : Shape := ⟨3, ![4, 1024, 1024]⟩
abbrev S4x1024 : Shape := ⟨2, ![4, 1024]⟩
abbrev S4x1024x1 : Shape := ⟨3, ![4, 1024, 1]⟩
abbrev S4x1 : Shape := ⟨2, ![4, 1]⟩
abbrev S4x1x1 : Shape := ⟨3, ![4, 1, 1]⟩
abbrev S1x1x1 : Shape := ⟨3, ![1, 1, 1]⟩
abbrev S_ : Shape := ⟨0, ![]⟩

abbrev nBuf : Space → Nat
  | .hbm => 3
  | .vmem => 3
  | .smem => 0
  | _ => 0

abbrev bufTy : (tb : Table) → Fin (tcTables nBuf tb) → BufTy
  | .hbm, ⟨0, _⟩ => ⟨S64x1024x1024, .f32⟩
  | .hbm, ⟨1, _⟩ => ⟨S1x1, .f32⟩
  | .hbm, ⟨2, _⟩ => ⟨S_, .f32⟩
  | .local _ .vmem, ⟨0, _⟩ => ⟨S4x1024x1024, .f32⟩
  | .local _ .vmem, ⟨1, _⟩ => ⟨S4x1024x1024, .f32⟩
  | .local _ .vmem, ⟨2, _⟩ => ⟨S1x1, .f32⟩
  | _, _ => ⟨S64x1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S4x1024x1024_S4x1024x1024_0_0_0 : ∀ a, (![0, 0, 0] : Fin 3 → Nat) a + S4x1024x1024.size a ≤ S4x1024x1024.size a
  h_S4x1024x1024 : 0 < S4x1024x1024.numel
  reduces_S4x1024x1024_S4x1024 : S4x1024x1024.Reduces [2] S4x1024
  shapeCasts_S4x1024_S4x1024x1 : S4x1024.ShapeCasts S4x1024x1
  reduces_S4x1024x1_S4x1 : S4x1024x1.Reduces [1] S4x1
  shapeCasts_S4x1_S4x1x1 : S4x1.ShapeCasts S4x1x1
  reduces_S4x1x1_S1x1 : S4x1x1.Reduces [0] S1x1
  shapeCasts_S1x1_S1x1x1 : S1x1.ShapeCasts S1x1x1
  shapeCasts_S1x1_S1x1 : S1x1.ShapeCasts S1x1
  shapeCasts_S1x1x1_S1x1 : S1x1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x1024.size a ≤ S64x1024x1024.size a
  hwx0_0 : ∀ i : grid0.Coords, EltTy.bits .f32 = 32 ∨ (Rect.block (s := S64x1024x1024) S4x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_arg0) S4x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x1024x1024 : Shape := ⟨3, ![64, 1024, 1024]⟩
abbrev S_ : Shape := ⟨0, ![]⟩

abbrev nBuf : Space → Nat
  | .hbm => 3
  | .vmem => 0
  | .smem => 0
  | _ => 0

abbrev bufTy : (tb : Table) → Fin (tcTables nBuf tb) → BufTy
  | .hbm, ⟨0, _⟩ => ⟨S64x1024x1024, .f32⟩
  | .hbm, ⟨1, _⟩ => ⟨S_, .f32⟩
  | .hbm, ⟨2, _⟩ => ⟨S_, .f32⟩
  | _, _ => ⟨S64x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S64x1024x1024_S_d0_1_2 : S64x1024x1024.ReducesTo [0, 1, 2] S_
  h_S_ : 0 < S_.numel

variable [Facts₀]

class Facts : Prop extends Facts₀ where

variable [Facts]
-- ==== Proof.Pieces.lean ====
/-
  What the body leaves in the output's [1, 1] staging buffer, case by case, as values.

  The body writes the output block through stores that cover it whole, so what the buffer holds afterwards is the
  last store's value:
  * at the first grid point the body first stores the zero block, reads it back, and stores
    `step x zero` where `x` is the point's slab of the argument and `step` the body's arithmetic;
  * at every later point the buffer still holds the previous total `o`, and the body stores `step x o`.
-/
import proofs.«130905_j61933428409683_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later point: the buffer held `o`; the one covering store leaves the body's arithmetic of the slab and `o`. -/
theorem out_later (c : Dev nD) (i : grid0.Coords) (a1 : Memref sig .tc .vmem S4x1024x1024 .f32) (h1 : a1.IsWhole)
    (a2 : Memref sig .tc .vmem S1x1 .f32) (h2 : a2.IsWhole) (hc : ¬cond0_0 i)
    (x : Vec F S4x1024x1024 .f32) (o : Vec F S1x1 .f32) :
    out0_B_1 c i a1 h1 a2 h2 hc x o = k0_pay2 x o := by
  unfold out0_B_1
  rw [View.read_writes_eq_canon _ _ _ (cover0_B_1 c i a1 h1 a2 h2 hc x o)]
  unfold kernelRun0_B
  dsimp only
  rw [View.canon_unit_zero hz2]
  simp only [View.readAt_eq_ld, h1.read_unread, h2.read_unread, View.ld_unit_zero (S := S4x1024x1024) hz3,
    View.ld_unit_zero (S := S1x1) hz2]

/-- The first point: the zero block is stored and read back; the last store leaves the body's arithmetic of the slab
    and the zero block. -/
theorem out_first (c : Dev nD) (i : grid0.Coords) (a1 : Memref sig .tc .vmem S4x1024x1024 .f32) (h1 : a1.IsWhole)
    (a2 : Memref sig .tc .vmem S1x1 .f32) (h2 : a2.IsWhole) (hc : cond0_0 i)
    (x : Vec F S4x1024x1024 .f32) :
    out0_A_1 c i a1 h1 a2 h2 hc x = k0_pay2 x (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S1x1) hz2, View.readCov_unit_zero (S := S1x1) _ hz2]
  simp only [View.readAt_eq_ld, h1.read_unread, View.ld_unit_zero (S := S4x1024x1024) hz3]

end Cert.KernelIdeal.Pieces

end
-- ==== Proof.SumLaw.lean ====
/-
  Total sums over index sets, in any commutative monoid (used at the extended reals).

  Three facts, none of which needs finiteness (only commutativity and associativity of +):
  * re-laying an array out under another shape with as many elements keeps the sum of all its entries
    (the two index sets correspond by row-major position);
  * summing an array along some of its axes and then summing the result over the remaining axes is the sum of
    all entries (every entry lies in exactly one fibre of the projection that drops the summed axes);
  * the entries of a [64, 1024, 1024] array are those of its sixteen consecutive [4, 1024, 1024] slabs along the
    leading axis: entry (4t + b, r, l) of the array is entry (b, r, l) of slab t, so the sum of all entries is the
    sum over the slabs of each slab's sum.
-/
import Idealize.ShloMosaic.PureOps.Ideal.Laws
import Idealize.ShloMosaic.Lib.ValueIdx

noncomputable section

open scoped BigOperators

namespace Cert.SumLaw

open Idealize.ShloMosaic Idealize.ShloMosaic.ValueIdx

/-! ## Sums are invariant under a change of layout and under partial summation -/

/-- The entries of a re-laid array are the entries of the array: same total. -/
theorem sum_shapeCast {s t : Shape} {M : Type} [AddCommMonoid M] (x : s.Idx → M) (h : s.ShapeCasts t) :
    ∑ j : t.Idx, shapeCast t x h j = ∑ i : s.Idx, x i := by
  show ∑ j : t.Idx, x (Shape.reshapeEquiv h j) = _
  exact Equiv.sum_comp (Shape.reshapeEquiv h) x

/-- Summing along some axes, then over what is left, is the total: the fibres of the projection partition the
    index set. -/
theorem sum_reduceAdd {s t : Shape} {axes : List (Fin s.rank)} (h : s.Reduces axes t) (x : s.Idx → EReal) :
    ∑ j : t.Idx, Ideal.reduceAdd h x j = ∑ i : s.Idx, x i := by
  unfold Ideal.reduceAdd
  exact Finset.sum_fiberwise Finset.univ (fun i => h.drop i) x

/-- The same for the vector unit's additive reduction read over the extended reals. -/
theorem sum_multiReduction_add {s t : Shape} {φ : FTy} {axes : List (Fin s.rank)} (src : FVec Ideal s φ)
    (acc : BitVec φ.bits) (h : s.Reduces axes t) (hφ : FKind.Formats φ) (hacc : acc = FKind.add.neutral φ hφ) :
    ∑ j : t.Idx, multiReduction .add axes t src acc h hφ hacc j = ∑ i : s.Idx, src i :=
  sum_reduceAdd h src

/-! ## The array as sixteen slabs -/

/-- The whole array's shape and one slab's. -/
abbrev Arr : Shape := ⟨3, ![64, 1024, 1024]⟩
abbrev Slab : Shape := ⟨3, ![4, 1024, 1024]⟩

/-- Entry `y` of slab `t` sits in the array at leading coordinate `4t + y₀`, the other two coordinates kept. -/
def slabIdx (t : Fin 16) (y : Slab.Idx) : Arr.Idx :=
  ix3 (n0 := 64) (n1 := 1024) (n2 := 1024)
    ⟨4 * t.val + (y 0).val, by have h : (y 0).val < 4 := (y 0).isLt; have := t.isLt; omega⟩ (y 1) (y 2)

/-- Slabs and positions inside them name the array's entries one to one: the leading coordinate `a` is in slab
    `a / 4` at position `a % 4`. -/
def slabEquiv : Fin 16 × Slab.Idx ≃ Arr.Idx where
  toFun p := slabIdx p.1 p.2
  invFun j :=
    (⟨(j 0).val / 4, by have h : (j 0).val < 64 := (j 0).isLt; omega⟩,
     ix3 (n0 := 4) (n1 := 1024) (n2 := 1024) ⟨(j 0).val % 4, Nat.mod_lt _ (by decide)⟩ (j 1) (j 2))
  left_inv p := by
    obtain ⟨t, y⟩ := p
    have h0 : (y 0).val < 4 := (y 0).isLt
    refine Prod.ext (Fin.ext ?_) (funext fun a => ?_)
    · show (4 * t.val + (y 0).val) / 4 = t.val
      omega
    · match a with
      | ⟨0, _⟩ => exact Fin.ext (show (4 * t.val + (y 0).val) % 4 = (y 0).val by omega)
      | ⟨1, _⟩ => rfl
      | ⟨2, _⟩ => rfl
  right_inv j := by
    funext a
    match a with
    | ⟨0, _⟩ => exact Fin.ext (show 4 * ((j 0).val / 4) + (j 0).val % 4 = (j 0).val by omega)
    | ⟨1, _⟩ => rfl
    | ⟨2, _⟩ => rfl

/-- The sum of all entries is the sum over the slabs of each slab's sum. -/
theorem sum_slabs {M : Type*} [AddCommMonoid M] (x : Arr.Idx → M) :
    ∑ j : Arr.Idx, x j = ∑ t : Fin 16, ∑ y : Slab.Idx, x (slabIdx t y) := by
  rw [← Equiv.sum_comp slabEquiv x, Fintype.sum_prod_type]
  rfl

end Cert.SumLaw

end
-- ==== Proof.SlabSum.lean ====
/-
  What one grid point adds: the body's arithmetic read over the extended reals.

  At a grid point the body holds one [4, 1024, 1024] slab `x` of the argument and the running [1, 1] total `o`.
  It sums the slab along its last axis, then along the middle one, then along the first (each sum started from
  the zero word, with unit axes inserted and dropped in between), and adds the outcome to `o`. Over the extended
  reals every one of these steps keeps the sum of all entries (a partial summation or a change of layout), so
  the new total is `o + (the sum of all entries of the slab)`.
-/
import proofs.«130905_j61933428409683_1_alg».proof.Proof.Gen.KernelIdeal.Skeleton
import proofs.«130905_j61933428409683_1_alg».proof.Proof.SumLaw
import Idealize.ShloMosaic.Lib.Pipeline.Value

noncomputable section

open scoped BigOperators

namespace Cert.KernelIdeal.SlabSum

open Cert.KernelIdeal Cert.KernelIdeal.Gen Idealize.ShloMosaic Idealize.ShloMosaic.ValueIdx

/-- The slab summed along its last axis: one number per (b, r). -/
def laneSums (x : FVec Ideal S4x1024x1024 .f32) : FVec Ideal S4x1024 .f32 :=
  multiReduction .add [2] S4x1024 x 0x00000000#32 reduces_S4x1024x1024_S4x1024 (.inl rfl) rfl

/-- Those summed along the middle axis: one number per b. -/
def rowSums (x : FVec Ideal S4x1024x1024 .f32) : FVec Ideal S4x1 .f32 :=
  multiReduction .add [1] S4x1 (shapeCast S4x1024x1 (laneSums x) shapeCasts_S4x1024_S4x1024x1) 0x00000000#32
    reduces_S4x1024x1_S4x1 (.inl rfl) rfl

/-- Those summed along the first axis: one number. -/
def slabSum (x : FVec Ideal S4x1024x1024 .f32) : FVec Ideal S1x1 .f32 :=
  multiReduction .add [0] S1x1 (shapeCast S4x1x1 (rowSums x) shapeCasts_S4x1_S4x1x1) 0x00000000#32
    reduces_S4x1x1_S1x1 (.inl rfl) rfl

/-- The value the body stores is the running total plus that number (the printed operations, named). -/
theorem pay2_eq (x : FVec Ideal S4x1024x1024 .f32) (o : FVec Ideal S1x1 .f32) :
    k0_pay2 (F := Ideal) x o
      = addf (shapeCast S1x1 o shapeCasts_S1x1_S1x1)
          (shapeCast S1x1 (shapeCast S1x1x1 (slabSum x) shapeCasts_S1x1_S1x1x1) shapeCasts_S1x1x1_S1x1) := rfl

/-- The three nested sums are the sum of all entries of the slab. -/
theorem slabSum_apply (x : FVec Ideal S4x1024x1024 .f32) (i : S1x1.Idx) :
    slabSum x i = ∑ y : S4x1024x1024.Idx, x y :=
  calc slabSum x i
      = ∑ j : S4x1x1.Idx, shapeCast S4x1x1 (rowSums x) shapeCasts_S4x1_S4x1x1 j :=
        Ideal.multiReduction_add_total _ _ reduces_S4x1x1_S1x1
          (fun b => by match b with | ⟨0, _⟩ => rfl | ⟨1, _⟩ => rfl) _ _ i
    _ = ∑ j : S4x1.Idx, rowSums x j := SumLaw.sum_shapeCast _ _
    _ = ∑ j : S4x1024x1.Idx, shapeCast S4x1024x1 (laneSums x) shapeCasts_S4x1024_S4x1024x1 j :=
        SumLaw.sum_multiReduction_add _ _ reduces_S4x1024x1_S4x1 _ _
    _ = ∑ j : S4x1024.Idx, laneSums x j := SumLaw.sum_shapeCast _ _
    _ = ∑ y : S4x1024x1024.Idx, x y := SumLaw.sum_multiReduction_add _ _ reduces_S4x1024x1024_S4x1024 _ _

/-- One grid point's step: the new total at the [1, 1] block's one entry. -/
theorem pay2_apply (x : FVec Ideal S4x1024x1024 .f32) (o : FVec Ideal S1x1 .f32) (i : S1x1.Idx) :
    k0_pay2 (F := Ideal) x o i = o i + ∑ y : S4x1024x1024.Idx, x y := by
  rw [pay2_eq, shapeCast_self, shapeCast_shapeCast]
  exact congrArg (o i + ·) (slabSum_apply x i)

/-- The reset value the first point stores is the zero block. -/
theorem pay1_apply (i : S1x1.Idx) : k0_pay1 (F := Ideal) i = 0 := by
  show Ideal.ofBits .f32 0x00000000#32 = 0
  exact Ideal.ofBits_zero_f32

end Cert.KernelIdeal.SlabSum

end
-- ==== Proof.Total.lean ====
/-
  The running total across the grid, and the whole sum.

  Grid point `t` (of sixteen) holds slab `t` of the argument: entry (b, r, l) of the slab is entry (4t + b, r, l)
  of the array. The output's staging buffer holds, after point `n`, the sum of the entries of slabs 0 … n
  (induction on the point: the first point starts from zero, each later point adds its slab's sum to what the
  point before left). After the last point that is the sum of all entries of the array.
-/
import proofs.«130905_j61933428409683_1_alg».proof.Proof.Pieces
import proofs.«130905_j61933428409683_1_alg».proof.Proof.SlabSum

noncomputable section

open scoped BigOperators

namespace Cert.KernelIdeal.Total

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The argument array on core `c`, as a plain array of extended reals. -/
abbrev arg (c : Dev nD) : FVec Ideal S64x1024x1024 .f32 := m ((c : Thread nD τ).loc main_arg0)

/-- The slab grid point `t` holds. -/
def slab (c : Dev nD) (t : Fin cfg0.N) : FVec Ideal S4x1024x1024 .f32 := iblk m c 0 t

/-- Where the input window's block sits at point `t`: block index `t` along the leading axis, `0` along the others. -/
theorem block_index : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

theorem point_lt (t : Fin cfg0.N) : t.val < 16 := lt_of_lt_of_eq t.isLt (show cfg0.N = 16 from N_0)

/-- Entry `y` of the slab at point `t` is entry (4t + y₀, y₁, y₂) of the argument. -/
theorem slab_apply (c : Dev nD) (t : Fin cfg0.N) (y : S4x1024x1024.Idx) :
    slab m c t y = arg m c (SumLaw.slabIdx ⟨t.val, point_lt t⟩ y) := by
  unfold slab iblk
  rw [View.read_apply]
  show V m c main_arg0 _ = m ((c : Thread nD τ).loc main_arg0) _
  rw [V_main_arg0]
  refine congrArg _ (funext fun a => Fin.ext ?_)
  match a with
  | ⟨0, _⟩ =>
    show win0_0.index t 0 * 4 + 1 * (y 0).val = 4 * t.val + (y 0).val
    rw [(block_index t).1]; omega
  | ⟨1, _⟩ =>
    show win0_0.index t 1 * 1024 + 1 * (y 1).val = (y 1).val
    rw [(block_index t).2.1]; omega
  | ⟨2, _⟩ =>
    show win0_0.index t 2 * 1024 + 1 * (y 2).val = (y 2).val
    rw [(block_index t).2.2]; omega

/-- The sum of the entries of slab `n` (zero past the grid). -/
def slabTotal (c : Dev nD) (n : ℕ) : EReal :=
  if h : n < cfg0.N then ∑ y : S4x1024x1024.Idx, slab m c ⟨n, h⟩ y else 0

/-- After point `n` the output's staging buffer holds the sum of the entries of slabs 0 … n. -/
theorem outsAt_eq (c : Dev nD) : ∀ (n : ℕ) (h : n < cfg0.N) (i : S1x1.Idx),
    outsAt0 m c n h i = ∑ k ∈ Finset.range (n + 1), slabTotal m c k
  | 0, h, i => by
    have e1 := outsAt0_A m c ⟨0, h⟩ rfl
    have e2 := Pieces.out_first (F := Ideal) c (grid0.coords ⟨0, h⟩) (ms0_0 ⟨0, h⟩) (hs0_0 ⟨0, h⟩) (ms0_1 ⟨0, h⟩)
      (hs0_1 ⟨0, h⟩) ((hcond0_0 ⟨0, h⟩).mpr rfl) (iblk m c 0 ⟨0, h⟩)
    have e3 := SlabSum.pay2_apply (slab m c ⟨0, h⟩) (k0_pay1 (F := Ideal)) i
    rw [Finset.sum_range_one]
    unfold slabTotal
    rw [dif_pos h]
    refine (congrFun (e1.trans e2) i).trans (e3.trans ?_)
    rw [SlabSum.pay1_apply, zero_add]
  | n + 1, h, i => by
    have hN : cfg0.N = 16 := N_0
    have hB : ¬(⟨n + 1, h⟩ : Fin cfg0.N).val % 16 = 0 := by dsimp only; omega
    have e1 := outsAt0_B m c ⟨n + 1, h⟩ hB
    have e2 := Pieces.out_later (F := Ideal) c (grid0.coords ⟨n + 1, h⟩) (ms0_0 ⟨n + 1, h⟩) (hs0_0 ⟨n + 1, h⟩)
      (ms0_1 ⟨n + 1, h⟩) (hs0_1 ⟨n + 1, h⟩) (fun hh => hB ((hcond0_0 ⟨n + 1, h⟩).mp hh)) (iblk m c 0 ⟨n + 1, h⟩)
      (outsAt0 m c n (Nat.lt_of_succ_lt h))
    have e3 := SlabSum.pay2_apply (slab m c ⟨n + 1, h⟩) (outsAt0 m c n (Nat.lt_of_succ_lt h)) i
    rw [Finset.sum_range_succ, ← outsAt_eq c n (Nat.lt_of_succ_lt h) i]
    refine (congrFun (e1.trans e2) i).trans (e3.trans ?_)
    unfold slabTotal
    rw [dif_pos h]

/-- The sixteen slab sums add up to the sum of all entries of the argument. -/
theorem total_eq (c : Dev nD) :
    ∑ k ∈ Finset.range 16, slabTotal m c k = ∑ j : S64x1024x1024.Idx, arg m c j := by
  have hN : cfg0.N = 16 := N_0
  rw [Finset.sum_range, SumLaw.sum_slabs (arg m c)]
  refine Finset.sum_congr rfl fun k _ => ?_
  have hk : k.val < cfg0.N := by rw [hN]; exact k.isLt
  unfold slabTotal
  rw [dif_pos hk]
  exact Finset.sum_congr rfl fun y _ => slab_apply m c ⟨k.val, hk⟩ y

end Cert.KernelIdeal.Total

end
-- ==== Proof.Final.lean ====
/-
  The output array after the region.

  The output window's [1, 1] block never moves and is written back once, after the last grid point; its one block
  is the whole [1, 1] array. So that array ends holding the running total after the last point, which is the sum of
  all entries of the argument.
-/
import proofs.«130905_j61933428409683_1_alg».proof.Proof.Total

noncomputable section

open scoped BigOperators

namespace Cert.KernelIdeal.Final

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The sum of all entries of the argument on core `c`. -/
def total (c : Dev nD) : EReal := ∑ j : S64x1024x1024.Idx, Total.arg m c j

/-- The [1, 1] array holding that sum. -/
def block (c : Dev nD) : Buf (Elt Ideal) ((c : Thread nD τ).loc main_v0) := fun _ => total m c

/-- After the last of the sixteen points the running total is the sum of all entries. -/
theorem last_total (c : Dev nD) (n : ℕ) (h : n < cfg0.N) (hn : n = 15) (i : S1x1.Idx) :
    outsAt0 m c n h i = total m c := by
  subst hn
  exact (Total.outsAt_eq m c 15 h i).trans (Total.total_eq m c)

/-- The one write-back, after the last point, writes the sum of all entries. -/
theorem flushed_eq (c : Dev nD) (t : Fin cfg0.N) (hf : (cfg0.win 1).flush t = true) :
    (dats m 0 c).flushed 1 t = ((cfg0.win 1).blk t).view.read (Elt Ideal) (block m c) := by
  have hN : cfg0.N = 16 := N_0
  have h15 : t.val = 15 := by have := (flush0_1 t).mp hf; have := t.isLt; omega
  show (cfg0.win 1).cut (grid0.coords t) ((dats m 0 c).after 1 t) = _
  rw [after0_1]
  funext y
  rw [View.read_apply]
  exact last_total m c t.val t.isLt h15 _

end Cert.KernelIdeal.Final

end
-- ==== Proof.WholeArray.lean ====
/-
  The last grid point's output block is the whole [1, 1] array (block index (0, 0), block size the array's), so
  after the region the array holds what that point wrote back: the sum of all entries of the argument.
-/
import proofs.«130905_j61933428409683_1_alg».proof.Proof.Final

noncomputable section

namespace Cert.KernelIdeal.WholeArray

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The output block's position and extent at the last point: it starts at 0 and has extent 1 along both axes. -/
theorem last_block : ∀ a : Fin 2, win0_1.index t0_15 a * win0_1.size a = 0 ∧ win0_1.xsize (grid0.coords t0_15) a = 1 := by
  decide +kernel

/-- Every index of the [1, 1] array lies in the block the last point writes back. -/
theorem covered (c : Dev nD) (i : ((cfg0.win 1).arr.view.loc (c.tc : Thread nD τ)).2.ty.Idx) :
    ∃ t : Fin cfg0.N, (cfg0.win 1).flush t = true ∧ i ∈ ((cfg0.win 1).blk t).view.set := by
  refine ⟨t0_15, (flush0_1 t0_15).mpr rfl, ?_⟩
  show i ∈ ((View.whole main_v0).slice (win0_1.rect t0_15)).set
  rw [View.set_slice_whole, Rect.mem_set_unit]
  intro a
  have hi : (i a : Nat) < S1x1.size a := (i a).isLt
  have hs : S1x1.size a = 1 := by match a with | ⟨0, _⟩ => rfl | ⟨1, _⟩ => rfl
  show win0_1.index t0_15 a * win0_1.size a ≤ (i a : Nat)
    ∧ (i a : Nat) < win0_1.index t0_15 a * win0_1.size a + win0_1.xsize (grid0.coords t0_15) a
  rw [(last_block a).1, (last_block a).2]
  omega

/-- So the array ends holding the sum. -/
theorem final (c : Dev nD) : (dats m 0 c).arrAt 1 cfg0.N = Final.block m c :=
  (dats m 0 c).arrAt_eq_of_cover 1 (Final.block m c) (Final.flushed_eq m c) (covered c)

end Cert.KernelIdeal.WholeArray

end
-- ==== Proof.HostTail.lean ====
/-
  The host operation after the region: a change of layout from the [1, 1] array to a scalar. Whatever the buffers
  hold when it runs, the scalar ends holding the [1, 1] array's entries in row-major order, that is, its one entry.
-/
import proofs.«130905_j61933428409683_1_alg».proof.Proof.Gen.KernelIdeal.Launch
import Idealize.ShloMosaic.Lib.StableHlo.Run

noncomputable section

namespace Cert.KernelIdeal.HostTail

open Cert.KernelIdeal Cert.KernelIdeal.Gen Idealize.ShloMosaic Idealize.ShloMosaic.TcCoe Idealize.SL.Sem
open Idealize.ShloMosaic.StableHlo

/-- After the host line, from any contents `W` of the core's buffers, the scalar result is the [1, 1] array re-laid out. -/
theorem after_eq {F : FTy → Type} [FloatOps F] (W : Valuation τ sig (Elt F)) :
    StableHlo.after (hostOps1 (F := F)) W (Proc.devRef .tc main_v1)
      = shapeCast S_ (W (Proc.devRef .tc main_v0)) shapeCasts_S1x1_S_ := by
  after_results
  rfl

end Cert.KernelIdeal.HostTail

end
-- ==== Proof.KernelRun.lean ====
/-
  The idealized kernel's run, read: every execution ends with the scalar result holding the sum of all entries of
  the argument, and the argument unchanged.

  The region leaves the [1, 1] output array holding the sum; the one host line after it re-lays that array out as
  the scalar result, which keeps the entry.
-/
import proofs.«130905_j61933428409683_1_alg».proof.Proof.WholeArray
import proofs.«130905_j61933428409683_1_alg».proof.Proof.HostTail

noncomputable section

namespace Cert.KernelIdeal.KernelRun

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The scalar holding the sum of all entries of the argument on core `c`. -/
def scalar (c : Dev nD) : Buf (Elt Ideal) ((c : Thread nD τ).loc main_v1) := fun _ => Final.total m c

/-- What the region leaves in the [1, 1] output array, as the host line after it finds it. -/
theorem region_out (c : Dev nD) :
    Pipeline.withArrays (cfgs 0).spec c (V0 m c) (fun w => (dats m 0 c).arrAt w (cfgs 0).N) (Proc.devRef .tc main_v0)
      = Final.block m c :=
  (Pipeline.withArrays_arr spec0 launch0.win.arr_inj c _ _ 1).trans (WholeArray.final m c)

/-- After the host line the scalar result holds the sum. -/
theorem tail_eq (c : Dev nD) :
    Pipeline.afterTail₀ cfgs (dats m) 0 (V0 m) [hostOps1] c main_v1 = scalar m c := by
  unfold Pipeline.afterTail₀
  refine (HostTail.after_eq _).trans ?_
  rw [region_out m c]
  rfl

/-- The scalar result is no array of the pipeline and is not scoped: the region leaves it to the host line. -/
theorem result_rest : main_v1 ∈ Pipeline.restRefs sig (cfgs 0).spec :=
  Pipeline.mem_restRefs_of main_v1 rfl (fun w => by fin_cases w <;> decide)

/-- The run. -/
theorem run : θ_run defs (onTc (τ := τ) (main (F := Ideal))) ⟨m, fun _ => 0, ρ⟩ fun r => ∀ c : Dev nD,
      r.2.mem ((c : Thread nD τ).loc main_v1) = scalar m c
      ∧ r.2.mem ((c : Thread nD τ).loc main_arg0) = m ((c : Thread nD τ).loc main_arg0) :=
  (θ_run defs _ _).mono (fun _ h c =>
      ⟨((h c).2 main_v1 result_rest).trans (tail_eq m c),
       ((h c).1 0).trans (((dats m 0 c).arrAt_in 0 rfl _).trans ((A_eq m c 0).trans (V_main_arg0 m c)))⟩)
    (run_main m ρ)

end Cert.KernelIdeal.KernelRun

end
-- ==== Proof.RefSum.lean ====
/-
  The reference's result: the host's sum over all three axes, started from the zero word, is over the extended
  reals `0 +` the sum of all entries of the argument, that is, the sum of all entries.
-/
import proofs.«130905_j61933428409683_1_alg».proof.Proof.Gen.ReferenceIdeal.Read

noncomputable section

open scoped BigOperators

namespace Cert.ReferenceIdeal.RefSum

open Cert.ReferenceIdeal Cert.ReferenceIdeal.Gen Idealize.ShloMosaic

/-- The term the reference's run ends at is the scalar holding the sum of all entries. -/
theorem result_eq (x : FVec Ideal S64x1024x1024 .f32) :
    Host.reduceAdd x (constant S_ .f32 0x00000000#32) reducesTo_S64x1024x1024_S_d0_1_2 h_S_
      = fun _ => ∑ j : S64x1024x1024.Idx, x j := by
  rw [Read.val_main_v0_eq]
  funext i
  rw [Read.val_main_v0_apply, Read.val_main_cst_apply]
  show Ideal.ofBits .f32 0x00000000#32 + _ = _
  rw [Ideal.ofBits_zero_f32, zero_add]

end Cert.ReferenceIdeal.RefSum

end
-- ==== Proof.lean ====
/-
  The kernel sums a [64, 1024, 1024] array of f32 into a scalar: a grid of sixteen points, point `t` holding the
  slab of rows 4t … 4t+3 of the leading axis; each point sums its slab (along the last axis, then the middle one,
  then the first) and adds the outcome to a [1, 1] running total that is zeroed at the first point and written back
  after the last; the host re-lays the [1, 1] array out as a scalar. The reference is the host's sum over all three
  axes.

  Over the extended reals both are the sum of all entries of the argument: addition there is commutative and
  associative, so partial sums may be regrouped and re-laid out freely (Proof/SumLaw.lean), each point adds its
  slab's sum (Proof/SlabSum.lean, Proof/Pieces.lean), the running total after point `n` is the sum of slabs 0 … n
  and after the last point the whole sum (Proof/Total.lean, Proof/Final.lean, Proof/WholeArray.lean), the host's
  change of layout keeps the entry (Proof/HostTail.lean, Proof/KernelRun.lean), and the reference's sum started
  from zero is the same sum (Proof/RefSum.lean). No finiteness of the entries is needed. The word-level kernel and
  its idealization are the same text, so nothing is owed for the idealization itself.
-/
import proofs.«130905_j61933428409683_1_alg».proof.Defs
import proofs.«130905_j61933428409683_1_alg».proof.Proof.Gen.Kernel
import proofs.«130905_j61933428409683_1_alg».proof.Proof.Gen.Kernel.Skeleton
import proofs.«130905_j61933428409683_1_alg».proof.Proof.Gen.Kernel.Launch
import proofs.«130905_j61933428409683_1_alg».proof.Proof.Gen.Kernel.Points
import proofs.«130905_j61933428409683_1_alg».proof.Proof.Gen.Kernel.Frame
import proofs.«130905_j61933428409683_1_alg».proof.Proof.Gen.KernelIdeal
import proofs.«130905_j61933428409683_1_alg».proof.Proof.Gen.KernelIdeal.Skeleton
import proofs.«130905_j61933428409683_1_alg».proof.Proof.Gen.KernelIdeal.Launch
import proofs.«130905_j61933428409683_1_alg».proof.Proof.Gen.KernelIdeal.Points
import proofs.«130905_j61933428409683_1_alg».proof.Proof.Gen.KernelIdeal.Frame
import proofs.«130905_j61933428409683_1_alg».proof.Proof.Gen.ReferenceIdeal
import proofs.«130905_j61933428409683_1_alg».proof.Proof.Gen.ReferenceIdeal.Run
import proofs.«130905_j61933428409683_1_alg».proof.Proof.Gen.ReferenceIdeal.Read
import proofs.«130905_j61933428409683_1_alg».proof.Proof.Gen.Pre_finite_inputs
import proofs.«130905_j61933428409683_1_alg».proof.Proof.KernelRun
import proofs.«130905_j61933428409683_1_alg».proof.Proof.RefSum
import Idealize.ShloMosaic.Adequacy
import Idealize.ShloMosaic.Init

noncomputable section

namespace Cert.Proof

open Idealize.ShloMosaic Idealize.SL.Sem

/-- The word-level kernel runs and leaves its argument as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its argument as it was: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the argument, the kernel ends with its scalar result at the sum of all entries of the
    argument, and the reference at `0 +` that sum: equal extended reals. -/
theorem algebraic : Cert.algebraic_KernelIdeal_ReferenceIdeal := by
  intro m ρ m' ρ' _ hagree
  refine ⟨fun c => Cert.KernelIdeal.KernelRun.scalar m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.ReferenceIdeal.RefSum.result_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
